-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S300000 : Shape := ⟨1, ![300000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg20 : FVec F S256 .f32) (main_arg21 : FVec F S256x2 .f32) (main_arg22 : FVec F S2 .f32) (main_v63 : IVec S_ 1) (main_v67 : IVec S_ 1) : IVec S_ 1 :=
  let main_v68 : IVec S_ 1 := andi main_v63 main_v67
  let main_v69 : FVec F S256 .f32 := Host.absf main_arg20
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x2 .f32 := Host.absf main_arg21
  let main_cst_28 : FVec F S_ .f32 := constant S_ .f32 0x7F800000#32
  let main_v75 : FVec F S256x2 .f32 := broadcastInDim S256x2 ![] bcast_S_S256x2 main_cst_28
  let main_v76 : IVec S256x2 1 := cmpf .olt main_v74 main_v75
  let main_c_29 : IVec S_ 1 := constantI S_ 1 1#1
  let main_v77 : IVec S_ 1 := (fun x v => Host.reduce IntOp.andi x v reducesTo_S256x2_S_d0_1 h_S_) main_v76 main_c_29
  let main_v78 : IVec S_ 1 := andi main_v73 main_v77
  let main_v79 : FVec F S2 .f32 := Host.absf main_arg22
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg17 : FVec F S256 .f32) (main_arg18 : FVec F S256x256 .f32) (main_arg19 : FVec F S256x256 .f32) (main_arg20 : FVec F S256 .f32) (main_arg21 : FVec F S256x2 .f32) (main_arg22 : FVec F S2 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg17
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg18
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg19
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg20 main_arg21 main_arg22 main_v63 main_v67

def fn_part2 {F : FTy → Type} [FloatOps F] (main_arg13 : FVec F S256x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x2 .f32) (main_arg22 : FVec F S2 .f32) (main_v33 : IVec S_ 1) : IVec S_ 1 :=
  let main_v34 : FVec F S256x256 .f32 := Host.absf main_arg13
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg14
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg15
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg16
  let main_cst_18 : FVec F S_ .f32 := constant S_ .f32 0x7F800000#32
  let main_v50 : FVec F S256x256 .f32 := broadcastInDim S256x256 ![] bcast_S_S256x256 main_cst_18
  fn_part3 (F := F) main_arg17 main_arg18 main_arg19 main_arg20 main_arg21 main_arg22 main_v48 main_v49 main_v50

def fn_part1 {F : FTy → Type} [FloatOps F] (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x2 .f32) (main_arg22 : FVec F S2 .f32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg11
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg12
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_v33

def fn {F : FTy → Type} [FloatOps F] (main_arg0 : FVec F S50000x256 .f32) (main_arg1 : FVec F S50000x256 .f32) (main_arg2 : FVec F S50000x256 .f32) (main_arg3 : FVec F S50000x256 .f32) (main_arg4 : IVec S300000 32) (main_arg5 : IVec S300000 32) (main_arg6 : IVec S300000 32) (main_arg7 : IVec S300000 32) (main_arg8 : IVec S300000 32) (main_arg9 : IVec S300000 32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x2 .f32) (main_arg22 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000x256 .f32 := Host.absf main_arg3
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg10 main_arg11 main_arg12 main_arg13 main_arg14 main_arg15 main_arg16 main_arg17 main_arg18 main_arg19 main_arg20 main_arg21 main_arg22 main_v13 main_v16
-- ==== Kernel.lean ====
abbrev S50000x256 : Shape := ⟨2, ![50000, 256]⟩
abbrev S300000 : Shape := ⟨1, ![300000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩
abbrev S300000x1 : Shape := ⟨2, ![300000, 1]⟩
abbrev S300000x256 : Shape := ⟨2, ![300000, 256]⟩
abbrev S1x256 : Shape := ⟨2, ![1, 256]⟩
abbrev S1x2 : Shape := ⟨2, ![1, 2]⟩
abbrev S50000x2 : Shape := ⟨2, ![50000, 2]⟩
abbrev S2000x256 : Shape := ⟨2, ![2000, 256]⟩
abbrev S2000x2 : Shape := ⟨2, ![2000, 2]⟩

abbrev nBuf : Space → Nat
  | .hbm => 76
  | .vmem => 19
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S50000x256, .f32⟩
  | .hbm, ⟨3, _⟩ => ⟨S50000x256, .f32⟩
  | .hbm, ⟨4, _⟩ => ⟨S300000, .i32⟩
  | .hbm, ⟨5, _⟩ => ⟨S300000, .i32⟩
  | .hbm, ⟨6, _⟩ => ⟨S300000, .i32⟩
  | .hbm, ⟨7, _⟩ => ⟨S300000, .i32⟩
  | .hbm, ⟨8, _⟩ => ⟨S300000, .i32⟩
  | .hbm, ⟨9, _⟩ => ⟨S300000, .i32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256x256, .f32⟩
  | .hbm, ⟨20, _⟩ => ⟨S256, .f32⟩
  | .hbm, ⟨21, _⟩ => ⟨S256x2, .f32⟩
  | .hbm, ⟨22, _⟩ => ⟨S2, .f32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x256, .f32⟩
  | .hbm, ⟨32, _⟩ => ⟨S_, .f32⟩
  | .hbm, ⟨33, _⟩ => ⟨S50000x256, .f32⟩
  | .hbm, ⟨34, _⟩ => ⟨S300000x1, .i32⟩
  | .hbm, ⟨35, _⟩ => ⟨S50000x256, .f32⟩
  | .hbm, ⟨36, _⟩ => ⟨S_, .i32⟩
  | .hbm, ⟨37, _⟩ => ⟨S300000, .i32⟩
  | .hbm, ⟨38, _⟩ => ⟨S300000, .i1⟩
  | .hbm, ⟨39, _⟩ => ⟨S_, .i32⟩
  | .hbm, ⟨40, _⟩ => ⟨S300000, .i32⟩
  | .hbm, ⟨41, _⟩ => ⟨S300000, .i32⟩
  | .hbm, ⟨42, _⟩ => ⟨S300000, .i32⟩
  | .hbm, ⟨43, _⟩ => ⟨S300000x1, .i32⟩
  | .hbm, ⟨44, _⟩ => ⟨S300000x256, .f32⟩
  | .hbm, ⟨45, _⟩ => ⟨S_, .f32⟩
  | .hbm, ⟨46, _⟩ => ⟨S50000x256, .f32⟩
  | .hbm, ⟨47, _⟩ => ⟨S300000x1, .i32⟩
  | .hbm, ⟨48, _⟩ => ⟨S50000x256, .f32⟩
  | .hbm, ⟨49, _⟩ => ⟨S_, .i32⟩
  | .hbm, ⟨50, _⟩ => ⟨S300000, .i32⟩
  | .hbm, ⟨51, _⟩ => ⟨S300000, .i1⟩
  | .hbm, ⟨52, _⟩ => ⟨S_, .i32⟩
  | .hbm, ⟨53, _⟩ => ⟨S300000, .i32⟩
  | .hbm, ⟨54, _⟩ => ⟨S300000, .i32⟩
  | .hbm, ⟨55, _⟩ => ⟨S300000, .i32⟩
  | .hbm, ⟨56, _⟩ => ⟨S300000x1, .i32⟩
  | .hbm, ⟨57, _⟩ => ⟨S300000x256, .f32⟩
  | .hbm, ⟨58, _⟩ => ⟨S_, .f32⟩
  | .hbm, ⟨59, _⟩ => ⟨S50000x256, .f32⟩
  | .hbm, ⟨60, _⟩ => ⟨S300000x1, .i32⟩
  | .hbm, ⟨61, _⟩ => ⟨S50000x256, .f32⟩
  | .hbm, ⟨62, _⟩ => ⟨S256x256, .f32⟩
  | .hbm, ⟨63, _⟩ => ⟨S256x256, .f32⟩
  | .hbm, ⟨64, _⟩ => ⟨S256, .f32⟩
  | .hbm, ⟨65, _⟩ => ⟨S256, .f32⟩
  | .hbm, ⟨66, _⟩ => ⟨S256x256, .bf16⟩
  | .hbm, ⟨67, _⟩ => ⟨S256x256, .bf16⟩
  | .hbm, ⟨68, _⟩ => ⟨S256x256, .bf16⟩
  | .hbm, ⟨69, _⟩ => ⟨S256x256, .bf16⟩
  | .hbm, ⟨70, _⟩ => ⟨S256x256, .bf16⟩
  | .hbm, ⟨71, _⟩ => ⟨S256x2, .bf16⟩
  | .hbm, ⟨72, _⟩ => ⟨S1x256, .f32⟩
  | .hbm, ⟨73, _⟩ => ⟨S1x256, .f32⟩
  | .hbm, ⟨74, _⟩ => ⟨S1x2, .f32⟩
  | .hbm, ⟨75, _⟩ => ⟨S50000x2, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S256x2, .bf16⟩
  | .local _ .vmem, ⟨16, _⟩ => ⟨S1x2, .f32⟩
  | .local _ .vmem, ⟨17, _⟩ => ⟨S2000x2, .f32⟩
  | .local _ .vmem, ⟨18, _⟩ => ⟨S2000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bitsLt_bf16_f32 : FTy.bits .bf16 < FTy.bits .f32
  shapeCasts_S256_S1x256 : S256.ShapeCasts S1x256
  shapeCasts_S2_S1x2 : S2.ShapeCasts S1x2
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S2000x256_S256x256_S2000x256_1_0_0_1_n_n_wf : DotDims.WF S2000x256 S256x256 S2000x256 [1] [0] [0] [1] [] []
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2.size a ≤ S256x2.size a
  hwx0_11 : ∀ i : grid0.Coords, EltTy.bits .bf16 = 32 ∨ (Rect.block (s := S256x2) S256x2.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2.size a ≤ S1x2.size a
  hwx0_12 : ∀ i : grid0.Coords, EltTy.bits .f32 = 32 ∨ (Rect.block (s := S1x2) S1x2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x2.size a ≤ S50000x2.size a
  hwx0_13 : ∀ i : grid0.Coords, EltTy.bits .f32 = 32 ∨ (Rect.block (s := S50000x2) S2000x2.size (cc0_transform_13 i) (hinb0_13 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_v9) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39) S256x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42) S1x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v43) S2000x2.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x256 : Shape := ⟨2, ![50000, 256]⟩
abbrev S300000 : Shape := ⟨1, ![300000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩
abbrev S300000x1 : Shape := ⟨2, ![300000, 1]⟩
abbrev S300000x256 : Shape := ⟨2, ![300000, 256]⟩
abbrev S1x256 : Shape := ⟨2, ![1, 256]⟩
abbrev S50000x2 : Shape := ⟨2, ![50000, 2]⟩
abbrev S1x2 : Shape := ⟨2, ![1, 2]⟩

abbrev nBuf : Space → Nat
  | .hbm => 93
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S50000x256, .f32⟩
  | .hbm, ⟨3, _⟩ => ⟨S50000x256, .f32⟩
  | .hbm, ⟨4, _⟩ => ⟨S300000, .i32⟩
  | .hbm, ⟨5, _⟩ => ⟨S300000, .i32⟩
  | .hbm, ⟨6, _⟩ => ⟨S300000, .i32⟩
  | .hbm, ⟨7, _⟩ => ⟨S300000, .i32⟩
  | .hbm, ⟨8, _⟩ => ⟨S300000, .i32⟩
  | .hbm, ⟨9, _⟩ => ⟨S300000, .i32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256x256, .f32⟩
  | .hbm, ⟨20, _⟩ => ⟨S256, .f32⟩
  | .hbm, ⟨21, _⟩ => ⟨S256x2, .f32⟩
  | .hbm, ⟨22, _⟩ => ⟨S2, .f32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x256, .f32⟩
  | .hbm, ⟨32, _⟩ => ⟨S_, .f32⟩
  | .hbm, ⟨33, _⟩ => ⟨S50000x256, .f32⟩
  | .hbm, ⟨34, _⟩ => ⟨S300000x1, .i32⟩
  | .hbm, ⟨35, _⟩ => ⟨S50000x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S300000, .i32⟩
  | .hbm, ⟨44, _⟩ => ⟨S300000, .i1⟩
  | .hbm, ⟨45, _⟩ => ⟨S_, .i32⟩
  | .hbm, ⟨46, _⟩ => ⟨S300000, .i32⟩
  | .hbm, ⟨47, _⟩ => ⟨S300000, .i32⟩
  | .hbm, ⟨48, _⟩ => ⟨S300000, .i32⟩
  | .hbm, ⟨49, _⟩ => ⟨S300000x1, .i32⟩
  | .hbm, ⟨50, _⟩ => ⟨S300000x256, .f32⟩
  | .hbm, ⟨51, _⟩ => ⟨S_, .f32⟩
  | .hbm, ⟨52, _⟩ => ⟨S50000x256, .f32⟩
  | .hbm, ⟨53, _⟩ => ⟨S300000x1, .i32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S300000, .i32⟩
  | .hbm, ⟨64, _⟩ => ⟨S300000, .i1⟩
  | .hbm, ⟨65, _⟩ => ⟨S_, .i32⟩
  | .hbm, ⟨66, _⟩ => ⟨S300000, .i32⟩
  | .hbm, ⟨67, _⟩ => ⟨S300000, .i32⟩
  | .hbm, ⟨68, _⟩ => ⟨S300000, .i32⟩
  | .hbm, ⟨69, _⟩ => ⟨S300000x1, .i32⟩
  | .hbm, ⟨70, _⟩ => ⟨S300000x256, .f32⟩
  | .hbm, ⟨71, _⟩ => ⟨S_, .f32⟩
  | .hbm, ⟨72, _⟩ => ⟨S50000x256, .f32⟩
  | .hbm, ⟨73, _⟩ => ⟨S300000x1, .i32⟩
  | .hbm, ⟨74, _⟩ => ⟨S50000x256, .f32⟩
  | .hbm, ⟨75, _⟩ => ⟨S50000x256, .f32⟩
  | .hbm, ⟨76, _⟩ => ⟨S1x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S_, .f32⟩
  | .hbm, ⟨83, _⟩ => ⟨S50000x256, .f32⟩
  | .hbm, ⟨84, _⟩ => ⟨S50000x256, .f32⟩
  | .hbm, ⟨85, _⟩ => ⟨S50000x256, .f32⟩
  | .hbm, ⟨86, _⟩ => ⟨S1x256, .f32⟩
  | .hbm, ⟨87, _⟩ => ⟨S50000x256, .f32⟩
  | .hbm, ⟨88, _⟩ => ⟨S50000x256, .f32⟩
  | .hbm, ⟨89, _⟩ => ⟨S50000x2, .f32⟩
  | .hbm, ⟨90, _⟩ => ⟨S1x2, .f32⟩
  | .hbm, ⟨91, _⟩ => ⟨S50000x2, .f32⟩
  | .hbm, ⟨92, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_1 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_4 : Ref sig .tc := ⟨.hbm, 62, rfl⟩
abbrev main_v33 : Ref sig .tc := ⟨.hbm, 63, rfl⟩
abbrev main_v34 : Ref sig .tc := ⟨.hbm, 64, rfl⟩
abbrev main_c_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call0_cst : Ref sig .tc := ⟨.hbm, 82, rfl⟩
abbrev main_call0_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.RowFormula.lean ====
/-
  One output row of a three-relation graph convolution followed by a ReLU and two dense layers, on the extended reals.

  For a node with aggregated neighbour rows a, b, c (one per relation) and own feature row x, the hidden row is
      h = a·Wa + b·Wb + c·Wc + (three root terms x·Ra, x·Rb, x·Rc) + (three biases),
  then  g = max(h, z)·Wm + bm  and the output row is  g·Wl + bl.
  Two arrangements of h are written down: the FOLDED one adds the three root matrices and the three biases first and
  multiplies x once by the sum; the SPLIT one multiplies x by each root matrix and adds relation by relation. They
  agree whenever x and the root matrices are real: x·(Ra + Rb + Rc) = x·Ra + x·Rb + x·Rc entry by entry needs
  distributivity, which holds for real factors and fails at infinities; what remains is a reordering of a sum, which
  holds on all extended reals.
-/
import Idealize.ShloMosaic.PureOps.Ideal.Laws
import Idealize.ShloMosaic.Lib.ValueIdx

noncomputable section

namespace Cert.RowFormula

open Idealize.ShloMosaic Idealize.ShloMosaic.ValueIdx
open scoped BigOperators

/-- Entry j of the row vector u times the matrix W: the sum over k of u(k)·W(k, j). -/
def dotCol {n : ℕ} (u : Fin 256 → EReal) (W : Fin 256 → Fin n → EReal) (j : Fin n) : EReal :=
  ∑ k : Fin 256, u k * W k j

/-- The hidden row before the ReLU, folded: the root matrices already summed into Ws and the biases into bs. -/
def preFolded (a b c x : Fin 256 → EReal) (Wa Wb Wc Ws : Fin 256 → Fin 256 → EReal) (bs : Fin 256 → EReal)
    (j : Fin 256) : EReal :=
  (((dotCol a Wa j + dotCol b Wb j) + dotCol c Wc j) + dotCol x Ws j) + bs j

/-- The hidden row before the ReLU, split: relation by relation, each with its own bias and root term. -/
def preSplit (a b c x : Fin 256 → EReal) (Wa Wb Wc Ra Rb Rc : Fin 256 → Fin 256 → EReal) (ba bb bc : Fin 256 → EReal)
    (j : Fin 256) : EReal :=
  (((dotCol a Wa j + ba j) + dotCol x Ra j) + ((dotCol b Wb j + bb j) + dotCol x Rb j))
    + ((dotCol c Wc j + bc j) + dotCol x Rc j)

/-- From the hidden row to the output row: ReLU against the value z, a 256×256 layer, a 256×2 layer. -/
def head (z : EReal) (h : Fin 256 → EReal) (Wm : Fin 256 → Fin 256 → EReal) (bm : Fin 256 → EReal)
    (Wl : Fin 256 → Fin 2 → EReal) (bl : Fin 2 → EReal) (q : Fin 2) : EReal :=
  dotCol (fun k => dotCol (fun k' => max (h k') z) Wm k + bm k) Wl q + bl q

/-- For a real row x and real matrices, x times the sum of three matrices is the sum of the three products. -/
theorem dotCol_add3 (x : Fin 256 → EReal) (Ra Rb Rc : Fin 256 → Fin 256 → EReal) (j : Fin 256)
    (hx : ∀ k, ∃ r : ℝ, x k = (r : EReal)) (ha : ∀ k, ∃ r : ℝ, Ra k j = (r : EReal))
    (hb : ∀ k, ∃ r : ℝ, Rb k j = (r : EReal)) (hc : ∀ k, ∃ r : ℝ, Rc k j = (r : EReal)) :
    dotCol x (fun k j => (Ra k j + Rb k j) + Rc k j) j = (dotCol x Ra j + dotCol x Rb j) + dotCol x Rc j := by
  unfold dotCol
  rw [← Finset.sum_add_distrib, ← Finset.sum_add_distrib]
  refine Finset.sum_congr rfl fun k _ => ?_
  obtain ⟨r, hr⟩ := hx k
  obtain ⟨u, hu⟩ := ha k
  obtain ⟨v, hv⟩ := hb k
  obtain ⟨w, hw⟩ := hc k
  show x k * ((Ra k j + Rb k j) + Rc k j) = (x k * Ra k j + x k * Rb k j) + x k * Rc k j
  rw [hr, hu, hv, hw]
  norm_cast
  ring

/-- The two arrangements of the hidden row agree when x and the root matrices are real. -/
theorem preFolded_eq_preSplit (a b c x : Fin 256 → EReal) (Wa Wb Wc Ra Rb Rc : Fin 256 → Fin 256 → EReal)
    (ba bb bc : Fin 256 → EReal) (j : Fin 256)
    (hx : ∀ k, ∃ r : ℝ, x k = (r : EReal)) (ha : ∀ k, ∃ r : ℝ, Ra k j = (r : EReal))
    (hb : ∀ k, ∃ r : ℝ, Rb k j = (r : EReal)) (hc : ∀ k, ∃ r : ℝ, Rc k j = (r : EReal)) :
    preFolded a b c x Wa Wb Wc (fun k j => (Ra k j + Rb k j) + Rc k j) (fun j => (ba j + bb j) + bc j) j
      = preSplit a b c x Wa Wb Wc Ra Rb Rc ba bb bc j := by
  unfold preFolded preSplit
  rw [dotCol_add3 x Ra Rb Rc j hx ha hb hc]
  abel_nf

/-! ## Whole arrays: every output row is the row formula of the same row of the inputs -/

/-- An N-row matrix of extended reals. -/
abbrev Arr2 (N n : ℕ) := (⟨2, ![N, n]⟩ : Shape).Idx → EReal
/-- A vector of extended reals. -/
abbrev Arr1 (n : ℕ) := (⟨1, ![n]⟩ : Shape).Idx → EReal

/-- The output array, folded arrangement; the biases are one-row matrices. -/
def outFolded (N : ℕ) (z : EReal) (A B C X : Arr2 N 256) (Wa Wb Wc Ws : Arr2 256 256) (bs : Arr2 1 256)
    (Wm : Arr2 256 256) (bm : Arr2 1 256) (Wl : Arr2 256 2) (bl : Arr2 1 2) : Arr2 N 2 := fun i =>
  head z
    (preFolded (fun k => A (ix2 (i 0) k)) (fun k => B (ix2 (i 0) k)) (fun k => C (ix2 (i 0) k)) (fun k => X (ix2 (i 0) k))
      (fun k j => Wa (ix2 k j)) (fun k j => Wb (ix2 k j)) (fun k j => Wc (ix2 k j)) (fun k j => Ws (ix2 k j))
      (fun j => bs (ix2 (0 : Fin 1) j)))
    (fun k j => Wm (ix2 k j)) (fun j => bm (ix2 (0 : Fin 1) j)) (fun k q => Wl (ix2 k q)) (fun q => bl (ix2 (0 : Fin 1) q)) (i 1)

/-- The output array, split arrangement; the biases are vectors. -/
def outSplit (N : ℕ) (z : EReal) (A B C X : Arr2 N 256) (Wa : Arr2 256 256) (ba : Arr1 256) (Ra : Arr2 256 256)
    (Wb : Arr2 256 256) (bb : Arr1 256) (Rb : Arr2 256 256) (Wc : Arr2 256 256) (bc : Arr1 256) (Rc : Arr2 256 256)
    (Wm : Arr2 256 256) (bm : Arr1 256) (Wl : Arr2 256 2) (bl : Arr1 2) : Arr2 N 2 := fun i =>
  head z
    (preSplit (fun k => A (ix2 (i 0) k)) (fun k => B (ix2 (i 0) k)) (fun k => C (ix2 (i 0) k)) (fun k => X (ix2 (i 0) k))
      (fun k j => Wa (ix2 k j)) (fun k j => Wb (ix2 k j)) (fun k j => Wc (ix2 k j))
      (fun k j => Ra (ix2 k j)) (fun k j => Rb (ix2 k j)) (fun k j => Rc (ix2 k j))
      (fun j => ba (ix1 j)) (fun j => bb (ix1 j)) (fun j => bc (ix1 j)))
    (fun k j => Wm (ix2 k j)) (fun j => bm (ix1 j)) (fun k q => Wl (ix2 k q)) (fun q => bl (ix1 q)) (i 1)

/-- A row of the folded array depends only on that row of the four row-indexed inputs: two arrays of different heights
    whose rows r' and r agree give the same output row. -/
theorem outFolded_rows {N M : ℕ} (z : EReal) (A B C X : Arr2 N 256) (A' B' C' X' : Arr2 M 256)
    (Wa Wb Wc Ws : Arr2 256 256) (bs : Arr2 1 256) (Wm : Arr2 256 256) (bm : Arr2 1 256) (Wl : Arr2 256 2) (bl : Arr2 1 2)
    (r : Fin N) (r' : Fin M) (q : Fin 2)
    (hA : ∀ k : Fin 256, A' (ix2 r' k) = A (ix2 r k)) (hB : ∀ k : Fin 256, B' (ix2 r' k) = B (ix2 r k))
    (hC : ∀ k : Fin 256, C' (ix2 r' k) = C (ix2 r k)) (hX : ∀ k : Fin 256, X' (ix2 r' k) = X (ix2 r k)) :
    outFolded M z A' B' C' X' Wa Wb Wc Ws bs Wm bm Wl bl (ix2 r' q)
      = outFolded N z A B C X Wa Wb Wc Ws bs Wm bm Wl bl (ix2 r q) := by
  show head z (preFolded (fun k => A' (ix2 r' k)) (fun k => B' (ix2 r' k)) (fun k => C' (ix2 r' k)) (fun k => X' (ix2 r' k))
      (fun k j => Wa (ix2 k j)) (fun k j => Wb (ix2 k j)) (fun k j => Wc (ix2 k j)) (fun k j => Ws (ix2 k j))
      (fun j => bs (ix2 (0 : Fin 1) j)))
      (fun k j => Wm (ix2 k j)) (fun j => bm (ix2 (0 : Fin 1) j)) (fun k q => Wl (ix2 k q)) (fun q => bl (ix2 (0 : Fin 1) q)) q
    = head z (preFolded (fun k => A (ix2 r k)) (fun k => B (ix2 r k)) (fun k => C (ix2 r k)) (fun k => X (ix2 r k))
      (fun k j => Wa (ix2 k j)) (fun k j => Wb (ix2 k j)) (fun k j => Wc (ix2 k j)) (fun k j => Ws (ix2 k j))
      (fun j => bs (ix2 (0 : Fin 1) j)))
      (fun k j => Wm (ix2 k j)) (fun j => bm (ix2 (0 : Fin 1) j)) (fun k q => Wl (ix2 k q)) (fun q => bl (ix2 (0 : Fin 1) q)) q
  simp only [hA, hB, hC, hX]

/-- The folded array, fed the summed root matrix and the summed and re-laid biases, is the split array, when the
    node features X and the three root matrices are real. -/
theorem outFolded_eq_outSplit (N : ℕ) (z : EReal) (A B C X : Arr2 N 256) (Wa : Arr2 256 256) (ba : Arr1 256) (Ra : Arr2 256 256)
    (Wb : Arr2 256 256) (bb : Arr1 256) (Rb : Arr2 256 256) (Wc : Arr2 256 256) (bc : Arr1 256) (Rc : Arr2 256 256)
    (Wm : Arr2 256 256) (bm : Arr1 256) (Wl : Arr2 256 2) (bl : Arr1 2)
    (Ws : Arr2 256 256) (bs : Arr2 1 256) (bm' : Arr2 1 256) (bl' : Arr2 1 2)
    (hWs : ∀ i, Ws i = (Ra i + Rb i) + Rc i)
    (hbs : ∀ j : Fin 256, bs (ix2 (0 : Fin 1) j) = (ba (ix1 j) + bb (ix1 j)) + bc (ix1 j))
    (hbm : ∀ j : Fin 256, bm' (ix2 (0 : Fin 1) j) = bm (ix1 j))
    (hbl : ∀ q : Fin 2, bl' (ix2 (0 : Fin 1) q) = bl (ix1 q))
    (hX : ∀ i, ∃ r : ℝ, X i = (r : EReal)) (hRa : ∀ i, ∃ r : ℝ, Ra i = (r : EReal))
    (hRb : ∀ i, ∃ r : ℝ, Rb i = (r : EReal)) (hRc : ∀ i, ∃ r : ℝ, Rc i = (r : EReal)) :
    outFolded N z A B C X Wa Wb Wc Ws bs Wm bm' Wl bl' = outSplit N z A B C X Wa ba Ra Wb bb Rb Wc bc Rc Wm bm Wl bl := by
  funext i
  unfold outFolded outSplit
  have e1 : (fun k j => Ws (ix2 k j)) = fun (k j : Fin 256) => (Ra (ix2 k j) + Rb (ix2 k j)) + Rc (ix2 k j) :=
    funext fun k => funext fun j => hWs _
  have e2 : (fun j => bs (ix2 (0 : Fin 1) j)) = fun j : Fin 256 => (ba (ix1 j) + bb (ix1 j)) + bc (ix1 j) := funext hbs
  have e3 : (fun j => bm' (ix2 (0 : Fin 1) j)) = fun j : Fin 256 => bm (ix1 j) := funext hbm
  have e4 : (fun q => bl' (ix2 (0 : Fin 1) q)) = fun q : Fin 2 => bl (ix1 q) := funext hbl
  rw [e1, e2, e3, e4]
  congr 1
  funext j
  exact preFolded_eq_preSplit _ _ _ _ _ _ _ (fun k j => Ra (ix2 k j)) (fun k j => Rb (ix2 k j)) (fun k j => Rc (ix2 k j))
    (fun j => ba (ix1 j)) (fun j => bb (ix1 j)) (fun j => bc (ix1 j)) j
    (fun k => hX _) (fun k => hRa _) (fun k => hRb _) (fun k => hRc _)

/-- The same, with every array on the folded side a variable of its own, equated to its counterpart on the split side:
    the form in which the kernel's window arrays meet the reference's arguments. -/
theorem outFolded_eq_outSplit_of (N : ℕ) (z : EReal) (A B C X : Arr2 N 256) (Wa : Arr2 256 256) (ba : Arr1 256) (Ra : Arr2 256 256)
    (Wb : Arr2 256 256) (bb : Arr1 256) (Rb : Arr2 256 256) (Wc : Arr2 256 256) (bc : Arr1 256) (Rc : Arr2 256 256)
    (Wm : Arr2 256 256) (bm : Arr1 256) (Wl : Arr2 256 2) (bl : Arr1 2)
    (A' B' C' X' : Arr2 N 256) (Wa' Wb' Wc' Ws : Arr2 256 256) (bs : Arr2 1 256) (Wm' : Arr2 256 256) (bm' : Arr2 1 256)
    (Wl' : Arr2 256 2) (bl' : Arr2 1 2)
    (hA : A' = A) (hB : B' = B) (hC : C' = C) (hX' : X' = X) (hWa : Wa' = Wa) (hWb : Wb' = Wb) (hWc : Wc' = Wc)
    (hWm : Wm' = Wm) (hWl : Wl' = Wl)
    (hWs : ∀ i, Ws i = (Ra i + Rb i) + Rc i)
    (hbs : ∀ j : Fin 256, bs (ix2 (0 : Fin 1) j) = (ba (ix1 j) + bb (ix1 j)) + bc (ix1 j))
    (hbm : ∀ j : Fin 256, bm' (ix2 (0 : Fin 1) j) = bm (ix1 j))
    (hbl : ∀ q : Fin 2, bl' (ix2 (0 : Fin 1) q) = bl (ix1 q))
    (hX : ∀ i, ∃ r : ℝ, X i = (r : EReal)) (hRa : ∀ i, ∃ r : ℝ, Ra i = (r : EReal))
    (hRb : ∀ i, ∃ r : ℝ, Rb i = (r : EReal)) (hRc : ∀ i, ∃ r : ℝ, Rc i = (r : EReal)) :
    outFolded N z A' B' C' X' Wa' Wb' Wc' Ws bs Wm' bm' Wl' bl' = outSplit N z A B C X Wa ba Ra Wb bb Rb Wc bc Rc Wm bm Wl bl := by
  subst hA hB hC hX' hWa hWb hWc hWm hWl
  exact outFolded_eq_outSplit N z _ _ _ _ _ ba Ra _ bb Rb _ bc Rc _ bm _ bl Ws bs bm' bl' hWs hbs hbm hbl hX hRa hRb hRc

end Cert.RowFormula

end
-- ==== Proof.ReferenceRows.lean ====
/-
  What the reference computes, read entry by entry on the extended reals.

  The reference aggregates the neighbours' rows per relation (a gather followed by a scatter-add; kept here as three
  opaque arrays, since the kernel's program forms them by the same operations), and then, row by row: per relation the
  aggregated row times the relation matrix, plus the bias, plus the node's own row times the root matrix; the sum of the
  three; the maximum with zero; and the two dense layers. A host product is the plain sum over the 256 contracted
  entries, and a bias broadcast over the rows reads the bias vector. So the reference's result is the split output
  formula of its arguments.
-/
import proofs.«167951_j37460704756549_2_alg».proof.Proof.Gen.ReferenceIdeal.Read
import proofs.«167951_j37460704756549_2_alg».proof.Proof.RowFormula

noncomputable section

namespace Cert.ReferenceRows

open Cert.ReferenceIdeal Cert.ReferenceIdeal.Read Idealize.ShloMosaic Idealize.ShloMosaic.ValueIdx Cert.RowFormula
open scoped BigOperators

/-! ## The operands' indices: at the output entry (r, c) a product reads row r of the left operand and column c of the
    right, entry k of each; a bias broadcast reads entry c of the vector. -/

theorem lidx_v10 (r : Fin 50000) (c k : Fin 256) : lidx_main_v10 (ix2 r c) k = ix2 r k :=
  funext fun a => Fin.ext (by match a with | ⟨0, _⟩ => rfl | ⟨1, _⟩ => rfl)
theorem ridx_v10 (r : Fin 50000) (c k : Fin 256) : ridx_main_v10 (ix2 r c) k = ix2 k c :=
  funext fun a => Fin.ext (by match a with | ⟨0, _⟩ => rfl | ⟨1, _⟩ => rfl)
theorem lidx_v14 (r : Fin 50000) (c k : Fin 256) : lidx_main_v14 (ix2 r c) k = ix2 r k :=
  funext fun a => Fin.ext (by match a with | ⟨0, _⟩ => rfl | ⟨1, _⟩ => rfl)
theorem ridx_v14 (r : Fin 50000) (c k : Fin 256) : ridx_main_v14 (ix2 r c) k = ix2 k c :=
  funext fun a => Fin.ext (by match a with | ⟨0, _⟩ => rfl | ⟨1, _⟩ => rfl)
theorem lidx_v26 (r : Fin 50000) (c k : Fin 256) : lidx_main_v26 (ix2 r c) k = ix2 r k :=
  funext fun a => Fin.ext (by match a with | ⟨0, _⟩ => rfl | ⟨1, _⟩ => rfl)
theorem ridx_v26 (r : Fin 50000) (c k : Fin 256) : ridx_main_v26 (ix2 r c) k = ix2 k c :=
  funext fun a => Fin.ext (by match a with | ⟨0, _⟩ => rfl | ⟨1, _⟩ => rfl)
theorem lidx_v30 (r : Fin 50000) (c k : Fin 256) : lidx_main_v30 (ix2 r c) k = ix2 r k :=
  funext fun a => Fin.ext (by match a with | ⟨0, _⟩ => rfl | ⟨1, _⟩ => rfl)
theorem ridx_v30 (r : Fin 50000) (c k : Fin 256) : ridx_main_v30 (ix2 r c) k = ix2 k c :=
  funext fun a => Fin.ext (by match a with | ⟨0, _⟩ => rfl | ⟨1, _⟩ => rfl)
theorem lidx_v43 (r : Fin 50000) (c k : Fin 256) : lidx_main_v43 (ix2 r c) k = ix2 r k :=
  funext fun a => Fin.ext (by match a with | ⟨0, _⟩ => rfl | ⟨1, _⟩ => rfl)
theorem ridx_v43 (r : Fin 50000) (c k : Fin 256) : ridx_main_v43 (ix2 r c) k = ix2 k c :=
  funext fun a => Fin.ext (by match a with | ⟨0, _⟩ => rfl | ⟨1, _⟩ => rfl)
theorem lidx_v47 (r : Fin 50000) (c k : Fin 256) : lidx_main_v47 (ix2 r c) k = ix2 r k :=
  funext fun a => Fin.ext (by match a with | ⟨0, _⟩ => rfl | ⟨1, _⟩ => rfl)
theorem ridx_v47 (r : Fin 50000) (c k : Fin 256) : ridx_main_v47 (ix2 r c) k = ix2 k c :=
  funext fun a => Fin.ext (by match a with | ⟨0, _⟩ => rfl | ⟨1, _⟩ => rfl)
theorem lidx_v51 (r : Fin 50000) (c k : Fin 256) : lidx_main_v51 (ix2 r c) k = ix2 r k :=
  funext fun a => Fin.ext (by match a with | ⟨0, _⟩ => rfl | ⟨1, _⟩ => rfl)
theorem ridx_v51 (r : Fin 50000) (c k : Fin 256) : ridx_main_v51 (ix2 r c) k = ix2 k c :=
  funext fun a => Fin.ext (by match a with | ⟨0, _⟩ => rfl | ⟨1, _⟩ => rfl)
theorem lidx_v55 (r : Fin 50000) (q : Fin 2) (k : Fin 256) : lidx_main_v55 (ix2 r q) k = ix2 r k :=
  funext fun a => Fin.ext (by match a with | ⟨0, _⟩ => rfl | ⟨1, _⟩ => rfl)
theorem ridx_v55 (r : Fin 50000) (q : Fin 2) (k : Fin 256) : ridx_main_v55 (ix2 r q) k = ix2 k q :=
  funext fun a => Fin.ext (by match a with | ⟨0, _⟩ => rfl | ⟨1, _⟩ => rfl)
theorem idx_v12 (r : Fin 50000) (c : Fin 256) : idx_main_v12 (ix2 r c) = ix2 (0 : Fin 1) c :=
  funext fun a => Fin.ext (by match a with | ⟨0, _⟩ => rfl | ⟨1, _⟩ => rfl)
theorem idx_v11 (u : Fin 1) (c : Fin 256) : idx_main_v11 (ix2 u c) = ix1 c :=
  funext fun a => Fin.ext (by match a with | ⟨0, _⟩ => rfl)
theorem idx_v28 (r : Fin 50000) (c : Fin 256) : idx_main_v28 (ix2 r c) = ix2 (0 : Fin 1) c :=
  funext fun a => Fin.ext (by match a with | ⟨0, _⟩ => rfl | ⟨1, _⟩ => rfl)
theorem idx_v27 (u : Fin 1) (c : Fin 256) : idx_main_v27 (ix2 u c) = ix1 c :=
  funext fun a => Fin.ext (by match a with | ⟨0, _⟩ => rfl)
theorem idx_v45 (r : Fin 50000) (c : Fin 256) : idx_main_v45 (ix2 r c) = ix2 (0 : Fin 1) c :=
  funext fun a => Fin.ext (by match a with | ⟨0, _⟩ => rfl | ⟨1, _⟩ => rfl)
theorem idx_v44 (u : Fin 1) (c : Fin 256) : idx_main_v44 (ix2 u c) = ix1 c :=
  funext fun a => Fin.ext (by match a with | ⟨0, _⟩ => rfl)
theorem idx_v53 (r : Fin 50000) (c : Fin 256) : idx_main_v53 (ix2 r c) = ix2 (0 : Fin 1) c :=
  funext fun a => Fin.ext (by match a with | ⟨0, _⟩ => rfl | ⟨1, _⟩ => rfl)
theorem idx_v52 (u : Fin 1) (c : Fin 256) : idx_main_v52 (ix2 u c) = ix1 c :=
  funext fun a => Fin.ext (by match a with | ⟨0, _⟩ => rfl)
theorem idx_v57 (r : Fin 50000) (q : Fin 2) : idx_main_v57 (ix2 r q) = ix2 (0 : Fin 1) q :=
  funext fun a => Fin.ext (by match a with | ⟨0, _⟩ => rfl | ⟨1, _⟩ => rfl)
theorem idx_v56 (u : Fin 1) (q : Fin 2) : idx_main_v56 (ix2 u q) = ix1 q :=
  funext fun a => Fin.ext (by match a with | ⟨0, _⟩ => rfl)

/-- The reference's result is the split output formula of the three aggregated arrays and the other arguments. -/
theorem result_eq (x0 x1 x2 x3 : (⟨S50000x256, .f32⟩ : BufTy).Contents (Elt Ideal)) (x4 x5 x6 x7 x8 x9 : (⟨S300000, .i32⟩ : BufTy).Contents (Elt Ideal))
    (x10 : (⟨S256x256, .f32⟩ : BufTy).Contents (Elt Ideal)) (x11 : (⟨S256, .f32⟩ : BufTy).Contents (Elt Ideal)) (x12 x13 : (⟨S256x256, .f32⟩ : BufTy).Contents (Elt Ideal)) (x14 : (⟨S256, .f32⟩ : BufTy).Contents (Elt Ideal))
    (x15 x16 : (⟨S256x256, .f32⟩ : BufTy).Contents (Elt Ideal)) (x17 : (⟨S256, .f32⟩ : BufTy).Contents (Elt Ideal)) (x18 x19 : (⟨S256x256, .f32⟩ : BufTy).Contents (Elt Ideal)) (x20 : (⟨S256, .f32⟩ : BufTy).Contents (Elt Ideal))
    (x21 : (⟨S256x2, .f32⟩ : BufTy).Contents (Elt Ideal)) (x22 : (⟨S2, .f32⟩ : BufTy).Contents (Elt Ideal)) :
    val_main_v58 (F := Ideal) x0 x1 x2 x3 x4 x5 x6 x7 x8 x9 x10 x11 x12 x13 x14 x15 x16 x17 x18 x19 x20 x21 x22
      = outSplit 50000 (Ideal.ofBits .f32 0x00000000#32)
          (val_main_v9 (F := Ideal) x0 x4 x5) (val_main_v25 (F := Ideal) x1 x6 x7) (val_main_v42 (F := Ideal) x2 x8 x9) x3
          x10 x11 x12 x13 x14 x15 x16 x17 x18 x19 x20 x21 x22 := by
  funext i
  obtain ⟨r, q, rfl⟩ : ∃ (r : Fin 50000) (q : Fin 2), i = ix2 r q := ⟨i 0, i 1, eq_ix2 i⟩
  rw [val_main_v58_apply, val_main_v55_apply, val_main_v57_apply, val_main_v56_apply]
  simp only [val_main_v54_apply, val_main_v53_apply, val_main_v52_apply, val_main_v51_apply, val_main_v50_apply, val_main_call0_v0_apply, val_main_call0_cst_apply, val_main_v49_apply, val_main_v48_apply, val_main_v47_apply, val_main_v46_apply, val_main_v45_apply, val_main_v44_apply, val_main_v43_apply, val_main_v32_apply, val_main_v31_apply, val_main_v30_apply, val_main_v29_apply, val_main_v28_apply, val_main_v27_apply, val_main_v26_apply, val_main_v15_apply, val_main_v14_apply, val_main_v13_apply, val_main_v12_apply, val_main_v11_apply, val_main_v10_apply,
    lidx_v10, ridx_v10, lidx_v14, ridx_v14, lidx_v26, ridx_v26, lidx_v30, ridx_v30, lidx_v43, ridx_v43, lidx_v47, ridx_v47, lidx_v51, ridx_v51, lidx_v55, ridx_v55, idx_v11, idx_v12, idx_v27, idx_v28, idx_v44, idx_v45, idx_v52, idx_v53, idx_v56, idx_v57]
  rfl

end Cert.ReferenceRows

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KernelRows.lean ====
/-
  What the kernel body computes on one block of 2000 rows, read entry by entry on the extended reals.

  The body multiplies each of the three aggregated blocks by its relation matrix, adds the node-feature block times the
  summed root matrix and the one-row bias, takes the maximum with the literal zero, and applies the two dense layers.
  Changes of float format are the identity here, a product into a zero accumulator is the plain sum over the 256
  contracted entries, and a one-row matrix broadcast over the rows reads its one row. So entry (p, q) of the block the
  body stores is the folded row formula of row p of the four input blocks.
-/
import proofs.«167951_j37460704756549_2_alg».proof.Proof.Gen.KernelIdeal.Skeleton
import proofs.«167951_j37460704756549_2_alg».proof.Proof.RowFormula
import proofs.«167951_j37460704756549_2_alg».proof.Proof.LibPlainDot
import Idealize.ShloMosaic.Lib.Pipeline.Value
import Idealize.ShloMosaic.Lib.ValueLayout

noncomputable section

namespace Cert.KernelRows

open Cert.KernelIdeal Cert.KernelIdeal.Gen Idealize.ShloMosaic Idealize.ShloMosaic.ValueIdx Cert.RowFormula
open scoped BigOperators

/-- The 2000×256 by 256×256 product into a zero accumulator, at (p, j): the sum over k of l(p, k)·r(k, j). -/
theorem matmul_hidden (l : FVec Ideal S2000x256 .bf16) (r : FVec Ideal S256x256 .bf16) (p : Fin 2000) (j : Fin 256) :
    matmul (F := Ideal) dot_S2000x256_S256x256_S2000x256_1_0_0_1_n_n none l r (constant S2000x256 .f32 0x00000000#32) (ix2 p j)
      = ∑ k : Fin 256, l (ix2 p k) * r (ix2 k j) :=
  Cert.LibPlainDot.matmul_plain 2000 256 256 none l r (ix2 p j)

/-- The 2000×256 by 256×2 product into a zero accumulator, at (p, q). -/
theorem matmul_out (l : FVec Ideal S2000x256 .bf16) (r : FVec Ideal S256x2 .bf16) (p : Fin 2000) (q : Fin 2) :
    matmul (F := Ideal) dot_S2000x256_S256x2_S2000x2_1_0_0_1_n_n none l r (constant S2000x2 .f32 0x00000000#32) (ix2 p q)
      = ∑ k : Fin 256, l (ix2 p k) * r (ix2 k q) :=
  Cert.LibPlainDot.matmul_plain 2000 256 2 none l r (ix2 p q)

/-- The hidden block after the ReLU, at (p, j): the maximum of the folded pre-activation of row p with the zero literal. -/
theorem hidden_apply (x0 x1 x2 x3 : FVec Ideal S2000x256 .f32) (w4 w5 w6 w7 : FVec Ideal S256x256 .bf16)
    (b8 : FVec Ideal S1x256 .f32) (p : Fin 2000) (j : Fin 256) :
    k0_pay2 (F := Ideal) x3 w7 x0 w4 x1 w5 x2 w6 b8 (ix2 p j)
      = max (preFolded (fun k => x0 (ix2 p k)) (fun k => x1 (ix2 p k)) (fun k => x2 (ix2 p k)) (fun k => x3 (ix2 p k))
          (fun k j => w4 (ix2 k j)) (fun k j => w5 (ix2 k j)) (fun k j => w6 (ix2 k j)) (fun k j => w7 (ix2 k j))
          (fun j => b8 (ix2 (0 : Fin 1) j)) j) (Ideal.ofBits .f32 0x00000000#32) := by
  unfold k0_pay2
  simp only [truncf_apply, maximumf_apply, addf_apply, broadcast_apply, shapeCast_self, matmul_hidden,
    broadcastTo_1b_ab_apply]
  rfl

/-- The stored block, at (p, q), from the hidden block: the two dense layers of row p. -/
theorem stored_apply (h : FVec Ideal S2000x256 .bf16) (w9 : FVec Ideal S256x256 .bf16) (b10 : FVec Ideal S1x256 .f32)
    (w11 : FVec Ideal S256x2 .bf16) (b12 : FVec Ideal S1x2 .f32) (p : Fin 2000) (q : Fin 2) :
    k0_pay1 (F := Ideal) h w9 b10 w11 b12 (ix2 p q)
      = dotCol (fun k => dotCol (fun k' => h (ix2 p k')) (fun k' k => w9 (ix2 k' k)) k + b10 (ix2 (0 : Fin 1) k))
          (fun k q => w11 (ix2 k q)) q + b12 (ix2 (0 : Fin 1) q) := by
  unfold k0_pay1
  simp only [truncf_apply, addf_apply, shapeCast_self, matmul_hidden, matmul_out, broadcastTo_1b_ab_apply]
  rfl

/-- The block the body stores is the folded output formula of the thirteen input blocks. -/
theorem payload_eq (x0 x1 x2 x3 : FVec Ideal S2000x256 .f32) (w4 w5 w6 w7 : FVec Ideal S256x256 .bf16)
    (b8 : FVec Ideal S1x256 .f32) (w9 : FVec Ideal S256x256 .bf16) (b10 : FVec Ideal S1x256 .f32)
    (w11 : FVec Ideal S256x2 .bf16) (b12 : FVec Ideal S1x2 .f32) :
    k0_pay1 (F := Ideal) (k0_pay2 (F := Ideal) x3 w7 x0 w4 x1 w5 x2 w6 b8) w9 b10 w11 b12
      = outFolded 2000 (Ideal.ofBits .f32 0x00000000#32) x0 x1 x2 x3 w4 w5 w6 w7 b8 w9 b10 w11 b12 := by
  funext i
  obtain ⟨p, q, rfl⟩ : ∃ (p : Fin 2000) (q : Fin 2), i = ix2 p q := ⟨i 0, i 1, eq_ix2 i⟩
  rw [stored_apply]
  simp only [hidden_apply]
  rfl

end Cert.KernelRows

end
-- ==== Proof.BlocksToArray.lean ====
/-
  From the blocks the kernel writes to the whole result array.

  The grid has 25 points; point t reads rows 2000·t … 2000·t + 1999 of the three aggregated arrays and of the node
  features, and the whole of every weight and bias array, and writes rows 2000·t … 2000·t + 1999 of the [50000, 2]
  result. Since an output row depends only on the same row of the row-indexed inputs, what point t writes is block t of
  ONE array: the folded output formula of the arrays the region finds. The 25 blocks tile the result (row i is in block
  i / 2000), so after the run the result array is that formula.
-/
import proofs.«167951_j37460704756549_2_alg».proof.Proof.Gen.KernelIdeal.Value
import proofs.«167951_j37460704756549_2_alg».proof.Proof.KernelRows
import proofs.«167951_j37460704756549_2_alg».proof.Proof.RowFormula

noncomputable section

namespace Cert.BlocksToArray

open Cert.KernelIdeal Cert.KernelIdeal.Gen Idealize.ShloMosaic Idealize.ShloMosaic.TcCoe Idealize.ShloMosaic.ValueIdx Idealize.SL.Sem
open Cert.RowFormula
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 25 grid points: the four row-indexed inputs move with the output along the
    rows and stay at column block 0; every weight and bias window stays at block (0, 0); the output's row block is t. -/
theorem idx_facts : ∀ t : Fin cfg0.N,
    win0_0.index t (0 : Fin 2) = win0_13.index t (0 : Fin 2)
    ∧ win0_0.index t (1 : Fin 2) = 0
    ∧ win0_1.index t (0 : Fin 2) = win0_13.index t (0 : Fin 2)
    ∧ win0_1.index t (1 : Fin 2) = 0
    ∧ win0_2.index t (0 : Fin 2) = win0_13.index t (0 : Fin 2)
    ∧ win0_2.index t (1 : Fin 2) = 0
    ∧ win0_3.index t (0 : Fin 2) = win0_13.index t (0 : Fin 2)
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (1 : Fin 2) = 0
    ∧ win0_13.index t (0 : Fin 2) = t.val :=
  (by decide +kernel : ∀ t : Fin grid0.N, _)

/-- The result array as one function of the arrays the region finds: the folded output formula. -/
def whole (c : Dev nD) : S50000x2.Idx → EReal :=
  outFolded 50000 (Ideal.ofBits .f32 0x00000000#32) (V m c main_v9) (V m c main_v19) (V m c main_v29) (V m c main_arg3) (V m c main_v34) (V m c main_v35) (V m c main_v36) (V m c main_v37) (V m c main_v40) (V m c main_v38) (V m c main_v41) (V m c main_v39) (V m c main_v42)

/-- Row p of input window 0's block at point t is row R of its array, R the p-th row of the output's block. -/
theorem read_rows0 (c : Dev nD) (t : Fin cfg0.N) (p : Fin 2000) (k : Fin 256) (R : Fin 50000)
    (hR : R.val = win0_13.index t (0 : Fin 2) * 2000 + 1 * p.val) :
    iblk m c 0 t (ix2 p k) = V m c main_v9 (ix2 R k) := by
  obtain ⟨r0, z0, r1, z1, r2, z2, r3, z3, a4, b4, a5, b5, a6, b6, a7, b7, a8, b8, a9, b9, a10, b10, a11, b11, a12, b12, o1, o0⟩ := idx_facts t
  show V m c main_v9 (((cfg0.win 0).blk t).view.emb (ix2 p k)) = V m c main_v9 (ix2 R k)
  have h : ((cfg0.win 0).blk t).view.emb (ix2 p k) = ix2 R k := by
    funext a; apply Fin.ext
    match a with
    | ⟨0, _⟩ => show win0_0.index t (0 : Fin 2) * 2000 + 1 * p.val = R.val; omega
    | ⟨1, _⟩ => show win0_0.index t (1 : Fin 2) * 256 + 1 * k.val = k.val; omega
  rw [h]

/-- Row p of input window 1's block at point t is row R of its array, R the p-th row of the output's block. -/
theorem read_rows1 (c : Dev nD) (t : Fin cfg0.N) (p : Fin 2000) (k : Fin 256) (R : Fin 50000)
    (hR : R.val = win0_13.index t (0 : Fin 2) * 2000 + 1 * p.val) :
    iblk m c 1 t (ix2 p k) = V m c main_v19 (ix2 R k) := by
  obtain ⟨r0, z0, r1, z1, r2, z2, r3, z3, a4, b4, a5, b5, a6, b6, a7, b7, a8, b8, a9, b9, a10, b10, a11, b11, a12, b12, o1, o0⟩ := idx_facts t
  show V m c main_v19 (((cfg0.win 1).blk t).view.emb (ix2 p k)) = V m c main_v19 (ix2 R k)
  have h : ((cfg0.win 1).blk t).view.emb (ix2 p k) = ix2 R k := by
    funext a; apply Fin.ext
    match a with
    | ⟨0, _⟩ => show win0_1.index t (0 : Fin 2) * 2000 + 1 * p.val = R.val; omega
    | ⟨1, _⟩ => show win0_1.index t (1 : Fin 2) * 256 + 1 * k.val = k.val; omega
  rw [h]

/-- Row p of input window 2's block at point t is row R of its array, R the p-th row of the output's block. -/
theorem read_rows2 (c : Dev nD) (t : Fin cfg0.N) (p : Fin 2000) (k : Fin 256) (R : Fin 50000)
    (hR : R.val = win0_13.index t (0 : Fin 2) * 2000 + 1 * p.val) :
    iblk m c 2 t (ix2 p k) = V m c main_v29 (ix2 R k) := by
  obtain ⟨r0, z0, r1, z1, r2, z2, r3, z3, a4, b4, a5, b5, a6, b6, a7, b7, a8, b8, a9, b9, a10, b10, a11, b11, a12, b12, o1, o0⟩ := idx_facts t
  show V m c main_v29 (((cfg0.win 2).blk t).view.emb (ix2 p k)) = V m c main_v29 (ix2 R k)
  have h : ((cfg0.win 2).blk t).view.emb (ix2 p k) = ix2 R k := by
    funext a; apply Fin.ext
    match a with
    | ⟨0, _⟩ => show win0_2.index t (0 : Fin 2) * 2000 + 1 * p.val = R.val; omega
    | ⟨1, _⟩ => show win0_2.index t (1 : Fin 2) * 256 + 1 * k.val = k.val; omega
  rw [h]

/-- Row p of input window 3's block at point t is row R of its array, R the p-th row of the output's block. -/
theorem read_rows3 (c : Dev nD) (t : Fin cfg0.N) (p : Fin 2000) (k : Fin 256) (R : Fin 50000)
    (hR : R.val = win0_13.index t (0 : Fin 2) * 2000 + 1 * p.val) :
    iblk m c 3 t (ix2 p k) = V m c main_arg3 (ix2 R k) := by
  obtain ⟨r0, z0, r1, z1, r2, z2, r3, z3, a4, b4, a5, b5, a6, b6, a7, b7, a8, b8, a9, b9, a10, b10, a11, b11, a12, b12, o1, o0⟩ := idx_facts t
  show V m c main_arg3 (((cfg0.win 3).blk t).view.emb (ix2 p k)) = V m c main_arg3 (ix2 R k)
  have h : ((cfg0.win 3).blk t).view.emb (ix2 p k) = ix2 R k := by
    funext a; apply Fin.ext
    match a with
    | ⟨0, _⟩ => show win0_3.index t (0 : Fin 2) * 2000 + 1 * p.val = R.val; omega
    | ⟨1, _⟩ => show win0_3.index t (1 : Fin 2) * 256 + 1 * k.val = k.val; omega
  rw [h]

/-- Input window 4's block is its whole array at every point. -/
theorem read_whole4 (c : Dev nD) (t : Fin cfg0.N) : iblk m c 4 t = V m c main_v34 := by
  obtain ⟨r0, z0, r1, z1, r2, z2, r3, z3, a4, b4, a5, b5, a6, b6, a7, b7, a8, b8, a9, b9, a10, b10, a11, b11, a12, b12, o1, o0⟩ := idx_facts t
  funext y
  show V m c main_v34 (((cfg0.win 4).blk t).view.emb y) = V m c main_v34 y
  have h : ((cfg0.win 4).blk t).view.emb y = y := by
    funext a; apply Fin.ext
    match a with
    | ⟨0, _⟩ => show win0_4.index t (0 : Fin 2) * 256 + 1 * (y 0).val = (y 0).val; omega
    | ⟨1, _⟩ => show win0_4.index t (1 : Fin 2) * 256 + 1 * (y 1).val = (y 1).val; omega
  rw [h]

/-- Input window 5's block is its whole array at every point. -/
theorem read_whole5 (c : Dev nD) (t : Fin cfg0.N) : iblk m c 5 t = V m c main_v35 := by
  obtain ⟨r0, z0, r1, z1, r2, z2, r3, z3, a4, b4, a5, b5, a6, b6, a7, b7, a8, b8, a9, b9, a10, b10, a11, b11, a12, b12, o1, o0⟩ := idx_facts t
  funext y
  show V m c main_v35 (((cfg0.win 5).blk t).view.emb y) = V m c main_v35 y
  have h : ((cfg0.win 5).blk t).view.emb y = y := by
    funext a; apply Fin.ext
    match a with
    | ⟨0, _⟩ => show win0_5.index t (0 : Fin 2) * 256 + 1 * (y 0).val = (y 0).val; omega
    | ⟨1, _⟩ => show win0_5.index t (1 : Fin 2) * 256 + 1 * (y 1).val = (y 1).val; omega
  rw [h]

/-- Input window 6's block is its whole array at every point. -/
theorem read_whole6 (c : Dev nD) (t : Fin cfg0.N) : iblk m c 6 t = V m c main_v36 := by
  obtain ⟨r0, z0, r1, z1, r2, z2, r3, z3, a4, b4, a5, b5, a6, b6, a7, b7, a8, b8, a9, b9, a10, b10, a11, b11, a12, b12, o1, o0⟩ := idx_facts t
  funext y
  show V m c main_v36 (((cfg0.win 6).blk t).view.emb y) = V m c main_v36 y
  have h : ((cfg0.win 6).blk t).view.emb y = y := by
    funext a; apply Fin.ext
    match a with
    | ⟨0, _⟩ => show win0_6.index t (0 : Fin 2) * 256 + 1 * (y 0).val = (y 0).val; omega
    | ⟨1, _⟩ => show win0_6.index t (1 : Fin 2) * 256 + 1 * (y 1).val = (y 1).val; omega
  rw [h]

/-- Input window 7's block is its whole array at every point. -/
theorem read_whole7 (c : Dev nD) (t : Fin cfg0.N) : iblk m c 7 t = V m c main_v37 := by
  obtain ⟨r0, z0, r1, z1, r2, z2, r3, z3, a4, b4, a5, b5, a6, b6, a7, b7, a8, b8, a9, b9, a10, b10, a11, b11, a12, b12, o1, o0⟩ := idx_facts t
  funext y
  show V m c main_v37 (((cfg0.win 7).blk t).view.emb y) = V m c main_v37 y
  have h : ((cfg0.win 7).blk t).view.emb y = y := by
    funext a; apply Fin.ext
    match a with
    | ⟨0, _⟩ => show win0_7.index t (0 : Fin 2) * 256 + 1 * (y 0).val = (y 0).val; omega
    | ⟨1, _⟩ => show win0_7.index t (1 : Fin 2) * 256 + 1 * (y 1).val = (y 1).val; omega
  rw [h]

/-- Input window 8's block is its whole array at every point. -/
theorem read_whole8 (c : Dev nD) (t : Fin cfg0.N) : iblk m c 8 t = V m c main_v40 := by
  obtain ⟨r0, z0, r1, z1, r2, z2, r3, z3, a4, b4, a5, b5, a6, b6, a7, b7, a8, b8, a9, b9, a10, b10, a11, b11, a12, b12, o1, o0⟩ := idx_facts t
  funext y
  show V m c main_v40 (((cfg0.win 8).blk t).view.emb y) = V m c main_v40 y
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 256 + 1 * (y 1).val = (y 1).val; omega
  rw [h]

/-- Input window 9's block is its whole array at every point. -/
theorem read_whole9 (c : Dev nD) (t : Fin cfg0.N) : iblk m c 9 t = V m c main_v38 := by
  obtain ⟨r0, z0, r1, z1, r2, z2, r3, z3, a4, b4, a5, b5, a6, b6, a7, b7, a8, b8, a9, b9, a10, b10, a11, b11, a12, b12, o1, o0⟩ := idx_facts t
  funext y
  show V m c main_v38 (((cfg0.win 9).blk t).view.emb y) = V m c main_v38 y
  have h : ((cfg0.win 9).blk t).view.emb y = y := by
    funext a; apply Fin.ext
    match a with
    | ⟨0, _⟩ => show win0_9.index t (0 : Fin 2) * 256 + 1 * (y 0).val = (y 0).val; omega
    | ⟨1, _⟩ => show win0_9.index t (1 : Fin 2) * 256 + 1 * (y 1).val = (y 1).val; omega
  rw [h]

/-- Input window 10's block is its whole array at every point. -/
theorem read_whole10 (c : Dev nD) (t : Fin cfg0.N) : iblk m c 10 t = V m c main_v41 := by
  obtain ⟨r0, z0, r1, z1, r2, z2, r3, z3, a4, b4, a5, b5, a6, b6, a7, b7, a8, b8, a9, b9, a10, b10, a11, b11, a12, b12, o1, o0⟩ := idx_facts t
  funext y
  show V m c main_v41 (((cfg0.win 10).blk t).view.emb y) = V m c main_v41 y
  have h : ((cfg0.win 10).blk t).view.emb y = y := by
    funext a; apply Fin.ext
    match a with
    | ⟨0, _⟩ => show win0_10.index t (0 : Fin 2) * 1 + 1 * (y 0).val = (y 0).val; omega
    | ⟨1, _⟩ => show win0_10.index t (1 : Fin 2) * 256 + 1 * (y 1).val = (y 1).val; omega
  rw [h]

/-- Input window 11's block is its whole array at every point. -/
theorem read_whole11 (c : Dev nD) (t : Fin cfg0.N) : iblk m c 11 t = V m c main_v39 := by
  obtain ⟨r0, z0, r1, z1, r2, z2, r3, z3, a4, b4, a5, b5, a6, b6, a7, b7, a8, b8, a9, b9, a10, b10, a11, b11, a12, b12, o1, o0⟩ := idx_facts t
  funext y
  show V m c main_v39 (((cfg0.win 11).blk t).view.emb y) = V m c main_v39 y
  have h : ((cfg0.win 11).blk t).view.emb y = y := by
    funext a; apply Fin.ext
    match a with
    | ⟨0, _⟩ => show win0_11.index t (0 : Fin 2) * 256 + 1 * (y 0).val = (y 0).val; omega
    | ⟨1, _⟩ => show win0_11.index t (1 : Fin 2) * 2 + 1 * (y 1).val = (y 1).val; omega
  rw [h]

/-- Input window 12's block is its whole array at every point. -/
theorem read_whole12 (c : Dev nD) (t : Fin cfg0.N) : iblk m c 12 t = V m c main_v42 := by
  obtain ⟨r0, z0, r1, z1, r2, z2, r3, z3, a4, b4, a5, b5, a6, b6, a7, b7, a8, b8, a9, b9, a10, b10, a11, b11, a12, b12, o1, o0⟩ := idx_facts t
  funext y
  show V m c main_v42 (((cfg0.win 12).blk t).view.emb y) = V m c main_v42 y
  have h : ((cfg0.win 12).blk t).view.emb y = y := by
    funext a; apply Fin.ext
    match a with
    | ⟨0, _⟩ => show win0_12.index t (0 : Fin 2) * 1 + 1 * (y 0).val = (y 0).val; omega
    | ⟨1, _⟩ => show win0_12.index t (1 : Fin 2) * 2 + 1 * (y 1).val = (y 1).val; omega
  rw [h]

/-- WHAT POINT t WRITES BACK is block t of `whole`. -/
theorem flushed_eq (c : Dev nD) (t : Fin cfg0.N) :
    (dats m 0 c).flushed 13 t = ((cfg0.win 13).blk t).view.read (Elt Ideal) (whole m c) := by
  rw [Cert.KernelIdeal.Value.flushed13]
  unfold out0_13
  rw [View.canon_unit_zero zero_offsets]
  simp only [View.ld_unit_zero (S := S2000x256) zero_offsets, View.ld_unit_zero (S := S256x256) zero_offsets,
    View.ld_unit_zero (S := S1x256) zero_offsets, View.ld_unit_zero (S := S256x2) zero_offsets,
    View.ld_unit_zero (S := S1x2) zero_offsets]
  rw [Cert.KernelRows.payload_eq]
  rw [read_whole4 m c t, read_whole5 m c t, read_whole6 m c t, read_whole7 m c t, read_whole8 m c t, read_whole9 m c t,
    read_whole10 m c t, read_whole11 m c t, read_whole12 m c t]
  obtain ⟨r0, z0, r1, z1, r2, z2, r3, z3, a4, b4, a5, b5, a6, b6, a7, b7, a8, b8, a9, b9, a10, b10, a11, b11, a12, b12, o1, o0⟩ := idx_facts t
  have ht : t.val < 25 := t.isLt
  funext j
  obtain ⟨p, q, rfl⟩ : ∃ (p : Fin 2000) (q : Fin 2), j = ix2 p q := ⟨j 0, j 1, eq_ix2 j⟩
  have hp : p.val < 2000 := p.isLt
  let R : Fin 50000 := ⟨win0_13.index t (0 : Fin 2) * 2000 + 1 * p.val, by omega⟩
  have hR : R.val = win0_13.index t (0 : Fin 2) * 2000 + 1 * p.val := rfl
  have hemb : ((cfg0.win 13).blk t).view.emb (ix2 p q) = ix2 R q := by
    funext a; apply Fin.ext
    match a with
    | ⟨0, _⟩ => rfl
    | ⟨1, _⟩ => show win0_13.index t (1 : Fin 2) * 2 + 1 * q.val = q.val; omega
  show outFolded 2000 (Ideal.ofBits .f32 0x00000000#32) (iblk m c 0 t) (iblk m c 1 t) (iblk m c 2 t) (iblk m c 3 t)
      (V m c main_v34) (V m c main_v35) (V m c main_v36) (V m c main_v37) (V m c main_v40) (V m c main_v38) (V m c main_v41) (V m c main_v39) (V m c main_v42) (ix2 p q)
    = whole m c (((cfg0.win 13).blk t).view.emb (ix2 p q))
  rw [hemb]
  exact outFolded_rows _ _ _ _ _ _ _ _ _ _ _ _ _ _ _ _ _ _ R p q
    (fun k => read_rows0 m c t p k R hR) (fun k => read_rows1 m c t p k R hR)
    (fun k => read_rows2 m c t p k R hR) (fun k => read_rows3 m c t p k R hR)

/-- An index of the result is in point t's block iff each coordinate is in the block's range on its axis. -/
theorem mem_blk (t : Fin cfg0.N) (i : S50000x2.Idx) :
    i ∈ ((cfg0.win 13).blk t).view.set ↔ ∀ a : Fin 2, win0_13.index t a * S2000x2.size a ≤ (i a).val
      ∧ (i a).val < win0_13.index t a * S2000x2.size a + S2000x2.size a := by
  show i ∈ ((View.whole main_v43).slice (win0_13.rect t)).set ↔ _
  rw [View.set_slice_whole, Rect.mem_set_unit]
  exact Iff.rfl

/-- Every row of the result is in some point's block: row i in block i / 2000. -/
theorem covered (i : S50000x2.Idx) :
    ∃ t : Fin cfg0.N, (cfg0.win 13).flush t = true ∧ i ∈ ((cfg0.win 13).blk t).view.set := by
  have hi0 : (i 0).val < 50000 := (i 0).isLt
  have hi1 : (i 1).val < 2 := (i 1).isLt
  have hlt : (i 0).val / 2000 < 25 := by omega
  let t : Fin cfg0.N := ⟨(i 0).val / 2000, hlt⟩
  have htv : t.val = (i 0).val / 2000 := rfl
  obtain ⟨r0, z0, r1, z1, r2, z2, r3, z3, a4, b4, a5, b5, a6, b6, a7, b7, a8, b8, a9, b9, a10, b10, a11, b11, a12, b12, o1, o0⟩ := idx_facts t
  refine ⟨t, flush0_13 t, ?_⟩
  rw [mem_blk]
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 2 ≤ (i 1).val ∧ (i 1).val < win0_13.index t (1 : Fin 2) * 2 + 2; omega

/-- THE ARRAY after the run is `whole`. -/
theorem final (c : Dev nD) : (dats m 0 c).arrAt 13 cfg0.N = whole m c :=
  (dats m 0 c).arrAt_eq_of_cover 13 (whole m c) (fun t _ => flushed_eq m c t) (covered)

end Cert.BlocksToArray

end
-- ==== Proof.WindowArrays.lean ====
/-
  WHAT EACH INPUT WINDOW'S ARRAY IS WHEN THE REGION IS ENTERED.
  The program applies its host operations to the launch arrays and then enters one region with thirteen input windows.
  Each window reads one array; this module says what that array is, as a term over the launch arrays.
    windows 0, 1, 2   the three aggregated feature arrays, one per relation: the rows of the source features picked out
                      by the relation's source indices (a negative index wrapped by adding the row count), summed into
                      the rows named by its target indices, from zero — segment_sum(x[src], dst). Each is shown to BE
                      the corresponding stage of the reference, which forms it by the same operations.
    window 3          the target features, an argument no host operation writes (the generated frame has that).
    windows 4, 5, 6   the three relation weight matrices, converted to the narrower float format; at the ideal instance
                      a format change is the identity, so each is the argument itself.
    window 7          the three root weight matrices summed, (W12 + W15) + W18, entry by entry, then converted.
    window 8          the three relation biases summed, (b11 + b14) + b17, as a row: a [256] vector viewed as [1, 256].
    window 9          the hidden layer's weight matrix, converted: the argument itself.
    window 10         the hidden layer's bias as a row [1, 256].
    window 11         the output layer's weight matrix, converted: the argument itself.
    window 12         the output layer's bias as a row [1, 2].
  Method: the array the region finds is the fold of the host operations over the launch memory; rewriting each
  operation's result at its own buffer, and every other operation away from it, leaves the operations' term over the
  launch arrays. A format change and a pointwise sum at the ideal instance are read at an index by definition; a
  [a] → [1, a] view reads the vector at the second coordinate.
-/
import proofs.«167951_j37460704756549_2_alg».proof.Proof.Gen.KernelIdeal.Frame
import proofs.«167951_j37460704756549_2_alg».proof.Proof.Gen.ReferenceIdeal.Read
import Idealize.ShloMosaic.Lib.ValueLayout
import Idealize.ShloMosaic.Lib.ValueIdx
import Idealize.ShloMosaic.Lib.Pipeline.Value

set_option maxRecDepth 16384

noncomputable section

namespace Cert.WindowArrays

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- The sum of two extended reals, with the type given: an array entry's type is the extended reals only after
    unfolding, which the ordinary `+` does not do when it looks for the addition. It IS the ordinary sum. -/
local infixl:65 " +ₑ " => (HAdd.hAdd : EReal → EReal → EReal)

/-! ## Windows 0–2: the aggregated features are the reference's stages

The two programs name their gather and scatter records and their shape facts separately, with the same fields; once the
reference's stage is unfolded to its operations, the two sides are the same term up to those names. -/

/-- Window 0: the first relation's aggregated features are the reference's first aggregation stage. -/
theorem agg_app : (V m c main_v9 : S50000x256.Idx → EReal)
    = Cert.ReferenceIdeal.Read.val_main_v9 (F := Ideal) (m ((c : Thread nD τ).loc main_arg0)) (m ((c : Thread nD τ).loc main_arg4)) (m ((c : Thread nD τ).loc main_arg5)) := by
  dsimp only [Gen.V, Gen.hostOps0]
  after_results_simp
  unfold Cert.ReferenceIdeal.Read.val_main_v9 Cert.ReferenceIdeal.Read.val_main_v8 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_c_0 Cert.ReferenceIdeal.Read.val_main_v1 Cert.ReferenceIdeal.Read.val_main_v0 Cert.ReferenceIdeal.Read.val_main_c
  rfl

/-- Window 1: the second relation's aggregated features are the reference's second aggregation stage. -/
theorem agg_non : (V m c main_v19 : S50000x256.Idx → EReal)
    = Cert.ReferenceIdeal.Read.val_main_v25 (F := Ideal) (m ((c : Thread nD τ).loc main_arg1)) (m ((c : Thread nD τ).loc main_arg6)) (m ((c : Thread nD τ).loc main_arg7)) := by
  dsimp only [Gen.V, Gen.hostOps0]
  after_results_simp
  unfold Cert.ReferenceIdeal.Read.val_main_v25 Cert.ReferenceIdeal.Read.val_main_v24 Cert.ReferenceIdeal.Read.val_main_v23 Cert.ReferenceIdeal.Read.val_main_cst_3 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_c_2 Cert.ReferenceIdeal.Read.val_main_v17 Cert.ReferenceIdeal.Read.val_main_v16 Cert.ReferenceIdeal.Read.val_main_c_1
  rfl

/-- Window 2: the third relation's aggregated features are the reference's third aggregation stage. -/
theorem agg_obs : (V m c main_v29 : S50000x256.Idx → EReal)
    = Cert.ReferenceIdeal.Read.val_main_v42 (F := Ideal) (m ((c : Thread nD τ).loc main_arg2)) (m ((c : Thread nD τ).loc main_arg8)) (m ((c : Thread nD τ).loc main_arg9)) := by
  dsimp only [Gen.V, Gen.hostOps0]
  after_results_simp
  unfold Cert.ReferenceIdeal.Read.val_main_v42 Cert.ReferenceIdeal.Read.val_main_v41 Cert.ReferenceIdeal.Read.val_main_v40 Cert.ReferenceIdeal.Read.val_main_cst_6 Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_c_5 Cert.ReferenceIdeal.Read.val_main_v34 Cert.ReferenceIdeal.Read.val_main_v33 Cert.ReferenceIdeal.Read.val_main_c_4
  rfl

/-! ## Windows 4–6, 9, 11: a converted weight matrix is the matrix -/

/-- Window 4: the first relation's weight matrix. -/
theorem w_rel_app : (V m c main_v34 : S256x256.Idx → EReal) = m ((c : Thread nD τ).loc main_arg10) := by
  dsimp only [Gen.V, Gen.hostOps0]
  after_results_simp
  rfl

/-- Window 5: the second relation's weight matrix. -/
theorem w_rel_non : (V m c main_v35 : S256x256.Idx → EReal) = m ((c : Thread nD τ).loc main_arg13) := by
  dsimp only [Gen.V, Gen.hostOps0]
  after_results_simp
  rfl

/-- Window 6: the third relation's weight matrix. -/
theorem w_rel_obs : (V m c main_v36 : S256x256.Idx → EReal) = m ((c : Thread nD τ).loc main_arg16) := by
  dsimp only [Gen.V, Gen.hostOps0]
  after_results_simp
  rfl

/-- Window 9: the hidden layer's weight matrix. -/
theorem w_mlp : (V m c main_v38 : S256x256.Idx → EReal) = m ((c : Thread nD τ).loc main_arg19) := by
  dsimp only [Gen.V, Gen.hostOps0]
  after_results_simp
  rfl

/-- Window 11: the output layer's weight matrix. -/
theorem w_lin : (V m c main_v39 : S256x2.Idx → EReal) = m ((c : Thread nD τ).loc main_arg21) := by
  dsimp only [Gen.V, Gen.hostOps0]
  after_results_simp
  rfl

/-! ## Window 7: the summed root weights -/

/-- Window 7: entry i of the array is the sum of the three root weight matrices' entries, associated to the left. -/
theorem w_root_sum (i : S256x256.Idx) : (V m c main_v37 : S256x256.Idx → EReal) i
    = (m ((c : Thread nD τ).loc main_arg12) i +ₑ m ((c : Thread nD τ).loc main_arg15) i) +ₑ m ((c : Thread nD τ).loc main_arg18) i := by
  have e : (V m c main_v37 : S256x256.Idx → EReal)
      = fun i => (m ((c : Thread nD τ).loc main_arg12) i +ₑ m ((c : Thread nD τ).loc main_arg15) i) +ₑ m ((c : Thread nD τ).loc main_arg18) i := by
    dsimp only [Gen.V, Gen.hostOps0]
    after_results_simp
    rfl
  exact congrFun e i

/-! ## Windows 8, 10, 12: a vector viewed as a one-row matrix -/

/-- Window 8: column j of the row is the sum of the three relation biases at j, associated to the left. -/
theorem b_rel_sum (j : Fin 256) : (V m c main_v40 : S1x256.Idx → EReal) (ix2 (0 : Fin 1) j)
    = (m ((c : Thread nD τ).loc main_arg11) (ix1 j) +ₑ m ((c : Thread nD τ).loc main_arg14) (ix1 j)) +ₑ m ((c : Thread nD τ).loc main_arg17) (ix1 j) := by
  have e : (V m c main_v40 : S1x256.Idx → EReal)
      = shapeCast S1x256 (fun k : S256.Idx => (m ((c : Thread nD τ).loc main_arg11) k +ₑ m ((c : Thread nD τ).loc main_arg14) k) +ₑ m ((c : Thread nD τ).loc main_arg17) k) Facts₀.shapeCasts_S256_S1x256 := by
    dsimp only [Gen.V, Gen.hostOps0]
    after_results_simp
    rfl
  rw [e]
  exact shapeCast_a_1a_apply _ _ _ _

/-- Window 10: column j of the row is the hidden layer's bias at j. -/
theorem b_mlp (j : Fin 256) : (V m c main_v41 : S1x256.Idx → EReal) (ix2 (0 : Fin 1) j) = m ((c : Thread nD τ).loc main_arg20) (ix1 j) := by
  have e : (V m c main_v41 : S1x256.Idx → EReal)
      = shapeCast S1x256 (m ((c : Thread nD τ).loc main_arg20) : S256.Idx → EReal) Facts₀.shapeCasts_S256_S1x256 := by
    dsimp only [Gen.V, Gen.hostOps0]
    after_results_simp
    rfl
  rw [e]
  exact shapeCast_a_1a_apply _ _ _ _

/-- Window 12: column q of the row is the output layer's bias at q. -/
theorem b_lin (q : Fin 2) : (V m c main_v42 : S1x2.Idx → EReal) (ix2 (0 : Fin 1) q) = m ((c : Thread nD τ).loc main_arg22) (ix1 q) := by
  have e : (V m c main_v42 : S1x2.Idx → EReal)
      = shapeCast S1x2 (m ((c : Thread nD τ).loc main_arg22) : S2.Idx → EReal) Facts₀.shapeCasts_S2_S1x2 := by
    dsimp only [Gen.V, Gen.hostOps0]
    after_results_simp
    rfl
  rw [e]
  exact shapeCast_a_1a_apply _ _ _ _

end Cert.WindowArrays

end
-- ==== Proof.FiniteEntries.lean ====
/-
  Finiteness of the inputs, read off the precondition.

  The precondition is one truth value: the conjunction, over the thirteen float arguments, of "every entry has absolute
  value strictly below +∞". On the extended reals that says every entry is a real number. The conjunction is unpacked
  for the four arguments whose entries enter a distributivity step — the node features and the three root weight
  matrices —, since x·(a + b + c) = x·a + x·b + x·c needs real factors.
-/
import proofs.«167951_j37460704756549_2_alg».proof.Defs
import Idealize.ShloMosaic.Lib.ReduceAll
import Idealize.ShloMosaic.Lib.ValueIdx
import Idealize.ShloMosaic.Lib.Affine

noncomputable section

namespace Cert.FiniteEntries

open Idealize.ShloMosaic Idealize.SL.Sem

section Decode

open Cert.Pre_finite_inputs Cert.Pre_finite_inputs.Facts

/-- A one-bit word made from a truth value is 1 exactly when the truth value is true. -/
private theorem ofBool_eq_one (b : Bool) : BitVec.ofBool b = 1#1 ↔ b = true := by cases b <;> decide

/-- An extended real x whose absolute value max x (-x) lies strictly below +∞ is a real number:
    x = +∞ gives max = +∞, and x = -∞ gives -x = +∞, so both infinities are excluded. -/
private theorem real_of_abs_lt_top (x : EReal) (h : max x (-x) < (⊤ : EReal)) : ∃ r : ℝ, x = (r : EReal) := by
  induction x using EReal.rec with
  | bot => simp at h
  | coe r => exact ⟨r, rfl⟩
  | top => simp at h

/-- The single-precision pattern 0x7F800000 (sign 0, exponent all ones, fraction 0) denotes +∞. -/
private theorem ofBits_inf : Ideal.ofBits .f32 0x7F800000#32 = (⊤ : EReal) := by
  simp [Ideal.ofBits, Ideal.ieee]

/-- A pointwise conjunction of two one-bit scalars that is 1 has both conjuncts 1. -/
private theorem andi_ix0 (a b : IVec S_ 1) (h : andi a b ValueIdx.ix0 = 1#1) :
    a ValueIdx.ix0 = 1#1 ∧ b ValueIdx.ix0 = 1#1 :=
  IntOp.andi_eq_one.1 h

/-- THE PER-ARRAY STEP. If the conjunction over all indices of |x i| < +∞ is true, every entry of x is a real
    number: the conjunction being 1 makes each comparison 1, the comparison is the order's, and an extended
    real with |x| < +∞ is neither infinity. -/
theorem real_of_all_finite {S : Shape} {axes : List (Fin S.rank)}
    (hb : S_.BroadcastsInDim S (![] : Fin 0 → Fin S.rank)) (hr : S.ReducesTo axes S_) (h0 : 0 < S_.numel)
    (x : FVec Ideal S .f32)
    (e : Host.reduce IntOp.andi
          (cmpf .olt (Host.absf (F := Ideal) x)
            (broadcastInDim S ![] hb (constant (F := Ideal) S_ .f32 0x7F800000#32)))
          (constantI S_ 1 1#1) hr h0 ValueIdx.ix0 = 1#1) :
    ∀ i, ∃ r : ℝ, x i = (r : EReal) := by
  intro i
  haveI : Subsingleton S_.Idx := ⟨fun a b => funext fun d => d.elim0⟩
  have hi := Host.reduce_andi_all _ _ hr h0 ValueIdx.ix0 e i
  have hc : Ideal.cmp .olt (max (x i) (-(x i))) (Ideal.ofBits .f32 0x7F800000#32) = 1#1 := hi
  rw [ofBits_inf] at hc
  unfold Ideal.cmp at hc
  rw [ofBool_eq_one] at hc
  exact real_of_abs_lt_top (x i) (of_decide_eq_true hc)

variable [Facts]

/-- The last part of the chain conjoins its two incoming scalars and three more tests: if it is 1, the first
    incoming scalar (the conjunction accumulated so far) is 1. -/
private theorem part4_fst (a20 : FVec Ideal S256 .f32) (a21 : FVec Ideal S256x2 .f32) (a22 : FVec Ideal S2 .f32)
    (v63 v67 : IVec S_ 1) (h : fn_part4 (F := Ideal) a20 a21 a22 v63 v67 ValueIdx.ix0 = 1#1) :
    v63 ValueIdx.ix0 = 1#1 := by
  dsimp only [fn_part4] at h
  exact (andi_ix0 _ _ (andi_ix0 _ _ (andi_ix0 _ _ (andi_ix0 _ _ h).1).1).1).1

/-- Part 3: if it is 1, so are the conjunction it was handed and the test of the argument it names a18. -/
private theorem part3_dec (a17 : FVec Ideal S256 .f32) (a18 a19 : FVec Ideal S256x256 .f32) (a20 : FVec Ideal S256 .f32)
    (a21 : FVec Ideal S256x2 .f32) (a22 : FVec Ideal S2 .f32) (v48 : IVec S_ 1) (v49 v50 : FVec Ideal S256x256 .f32)
    (h : fn_part3 (F := Ideal) a17 a18 a19 a20 a21 a22 v48 v49 v50 ValueIdx.ix0 = 1#1) :
    v48 ValueIdx.ix0 = 1#1 ∧ Host.reduce IntOp.andi
        (cmpf .olt (Host.absf (F := Ideal) a18)
          (broadcastInDim S256x256 ![] bcast_S_S256x256 (constant (F := Ideal) S_ .f32 0x7F800000#32)))
        (constantI S_ 1 1#1) reducesTo_S256x256_S_d0_1 h_S_ ValueIdx.ix0 = 1#1 := by
  dsimp only [fn_part3] at h
  have h63 := part4_fst _ _ _ _ _ h
  obtain ⟨h58, h62⟩ := andi_ix0 _ _ h63
  obtain ⟨h53, -⟩ := andi_ix0 _ _ h58
  obtain ⟨h48, -⟩ := andi_ix0 _ _ h53
  exact ⟨h48, h62⟩

/-- Part 2: if it is 1, so are the conjunction it was handed and the tests of a15 and a18. -/
private theorem part2_dec (a13 : FVec Ideal S256x256 .f32) (a14 : FVec Ideal S256 .f32) (a15 a16 : FVec Ideal S256x256 .f32)
    (a17 : FVec Ideal S256 .f32) (a18 a19 : FVec Ideal S256x256 .f32) (a20 : FVec Ideal S256 .f32)
    (a21 : FVec Ideal S256x2 .f32) (a22 : FVec Ideal S2 .f32) (v33 : IVec S_ 1)
    (h : fn_part2 (F := Ideal) a13 a14 a15 a16 a17 a18 a19 a20 a21 a22 v33 ValueIdx.ix0 = 1#1) :
    v33 ValueIdx.ix0 = 1#1
    ∧ Host.reduce IntOp.andi
        (cmpf .olt (Host.absf (F := Ideal) a15)
          (broadcastInDim S256x256 ![] bcast_S_S256x256 (constant (F := Ideal) S_ .f32 0x7F800000#32)))
        (constantI S_ 1 1#1) reducesTo_S256x256_S_d0_1 h_S_ ValueIdx.ix0 = 1#1
    ∧ Host.reduce IntOp.andi
        (cmpf .olt (Host.absf (F := Ideal) a18)
          (broadcastInDim S256x256 ![] bcast_S_S256x256 (constant (F := Ideal) S_ .f32 0x7F800000#32)))
        (constantI S_ 1 1#1) reducesTo_S256x256_S_d0_1 h_S_ ValueIdx.ix0 = 1#1 := by
  dsimp only [fn_part2] at h
  obtain ⟨h48, h18⟩ := part3_dec _ _ _ _ _ _ _ _ _ h
  obtain ⟨h43, h47⟩ := andi_ix0 _ _ h48
  obtain ⟨h38, -⟩ := andi_ix0 _ _ h43
  obtain ⟨h33, -⟩ := andi_ix0 _ _ h38
  exact ⟨h33, h47, h18⟩

/-- Part 1: if it is 1, so are the conjunction over all indices of the comparison array it was handed and the
    tests of a12, a15 and a18. -/
private theorem part1_dec (a10 : FVec Ideal S256x256 .f32) (a11 : FVec Ideal S256 .f32) (a12 a13 : FVec Ideal S256x256 .f32)
    (a14 : FVec Ideal S256 .f32) (a15 a16 : FVec Ideal S256x256 .f32) (a17 : FVec Ideal S256 .f32)
    (a18 a19 : FVec Ideal S256x256 .f32) (a20 : FVec Ideal S256 .f32) (a21 : FVec Ideal S256x2 .f32)
    (a22 : FVec Ideal S2 .f32) (v13 : IVec S_ 1) (v16 : IVec S50000x256 1)
    (h : fn_part1 (F := Ideal) a10 a11 a12 a13 a14 a15 a16 a17 a18 a19 a20 a21 a22 v13 v16 ValueIdx.ix0 = 1#1) :
    Host.reduce IntOp.andi v16 (constantI S_ 1 1#1) reducesTo_S50000x256_S_d0_1 h_S_ ValueIdx.ix0 = 1#1
    ∧ Host.reduce IntOp.andi
        (cmpf .olt (Host.absf (F := Ideal) a12)
          (broadcastInDim S256x256 ![] bcast_S_S256x256 (constant (F := Ideal) S_ .f32 0x7F800000#32)))
        (constantI S_ 1 1#1) reducesTo_S256x256_S_d0_1 h_S_ ValueIdx.ix0 = 1#1
    ∧ Host.reduce IntOp.andi
        (cmpf .olt (Host.absf (F := Ideal) a15)
          (broadcastInDim S256x256 ![] bcast_S_S256x256 (constant (F := Ideal) S_ .f32 0x7F800000#32)))
        (constantI S_ 1 1#1) reducesTo_S256x256_S_d0_1 h_S_ ValueIdx.ix0 = 1#1
    ∧ Host.reduce IntOp.andi
        (cmpf .olt (Host.absf (F := Ideal) a18)
          (broadcastInDim S256x256 ![] bcast_S_S256x256 (constant (F := Ideal) S_ .f32 0x7F800000#32)))
        (constantI S_ 1 1#1) reducesTo_S256x256_S_d0_1 h_S_ ValueIdx.ix0 = 1#1 := by
  dsimp only [fn_part1] at h
  obtain ⟨h33, h15, h18⟩ := part2_dec _ _ _ _ _ _ _ _ _ _ _ h
  obtain ⟨h28, h32⟩ := andi_ix0 _ _ h33
  obtain ⟨h23, -⟩ := andi_ix0 _ _ h28
  obtain ⟨h18', -⟩ := andi_ix0 _ _ h23
  obtain ⟨-, h17⟩ := andi_ix0 _ _ h18'
  exact ⟨h17, h32, h15, h18⟩

/-- The whole predicate: if it is 1, the tests of its arguments 3, 12, 15 and 18 are 1. -/
private theorem fn_dec (a0 a1 a2 a3 : FVec Ideal S50000x256 .f32) (a4 a5 a6 a7 a8 a9 : IVec S300000 32)
    (a10 : FVec Ideal S256x256 .f32) (a11 : FVec Ideal S256 .f32) (a12 a13 : FVec Ideal S256x256 .f32)
    (a14 : FVec Ideal S256 .f32) (a15 a16 : FVec Ideal S256x256 .f32) (a17 : FVec Ideal S256 .f32)
    (a18 a19 : FVec Ideal S256x256 .f32) (a20 : FVec Ideal S256 .f32) (a21 : FVec Ideal S256x2 .f32)
    (a22 : FVec Ideal S2 .f32)
    (h : fn (F := Ideal) a0 a1 a2 a3 a4 a5 a6 a7 a8 a9 a10 a11 a12 a13 a14 a15 a16 a17 a18 a19 a20 a21 a22
          ValueIdx.ix0 = 1#1) :
    Host.reduce IntOp.andi
        (cmpf .olt (Host.absf (F := Ideal) a3)
          (broadcastInDim S50000x256 ![] bcast_S_S50000x256 (constant (F := Ideal) S_ .f32 0x7F800000#32)))
        (constantI S_ 1 1#1) reducesTo_S50000x256_S_d0_1 h_S_ ValueIdx.ix0 = 1#1
    ∧ Host.reduce IntOp.andi
        (cmpf .olt (Host.absf (F := Ideal) a12)
          (broadcastInDim S256x256 ![] bcast_S_S256x256 (constant (F := Ideal) S_ .f32 0x7F800000#32)))
        (constantI S_ 1 1#1) reducesTo_S256x256_S_d0_1 h_S_ ValueIdx.ix0 = 1#1
    ∧ Host.reduce IntOp.andi
        (cmpf .olt (Host.absf (F := Ideal) a15)
          (broadcastInDim S256x256 ![] bcast_S_S256x256 (constant (F := Ideal) S_ .f32 0x7F800000#32)))
        (constantI S_ 1 1#1) reducesTo_S256x256_S_d0_1 h_S_ ValueIdx.ix0 = 1#1
    ∧ Host.reduce IntOp.andi
        (cmpf .olt (Host.absf (F := Ideal) a18)
          (broadcastInDim S256x256 ![] bcast_S_S256x256 (constant (F := Ideal) S_ .f32 0x7F800000#32)))
        (constantI S_ 1 1#1) reducesTo_S256x256_S_d0_1 h_S_ ValueIdx.ix0 = 1#1 := by
  dsimp only [fn] at h
  exact part1_dec _ _ _ _ _ _ _ _ _ _ _ _ _ _ _ h

end Decode

/-- Under the finiteness precondition every entry of the node features and of the three root weight matrices is a real number. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg12) i = (r : EReal))
    ∧ (∀ i, ∃ r : ℝ, m ((c.tc : Thread Cert.KernelIdeal.nD Cert.KernelIdeal.τ).loc Cert.KernelIdeal.main_arg15) i = (r : EReal))
    ∧ (∀ i, ∃ r : ℝ, m ((c.tc : Thread Cert.KernelIdeal.nD Cert.KernelIdeal.τ).loc Cert.KernelIdeal.main_arg18) i = (r : EReal)) := by
  have e := congrFun (h c) ValueIdx.ix0
  obtain ⟨h3, h12, h15, h18⟩ := fn_dec _ _ _ _ _ _ _ _ _ _ _ _ _ _ _ _ _ _ _ _ _ _ _ e
  exact ⟨real_of_all_finite _ _ _ _ h3, real_of_all_finite _ _ _ _ h12,
    real_of_all_finite _ _ _ _ h15, real_of_all_finite _ _ _ _ h18⟩

end Cert.FiniteEntries

end
-- ==== Proof.lean ====
/-
  Kernel against reference: a three-relation graph convolution with a ReLU and a two-layer head, for 50000 nodes.

  Both programs aggregate the neighbours' rows per relation by the same gather and scatter-add. The reference then
  computes, row by row and relation by relation, (aggregated row)·W_rel + b_rel + (own row)·W_root, adds the three, takes
  the maximum with zero and applies two dense layers. The kernel adds the three root matrices and the three biases on the
  host, and on each of 25 blocks of 2000 rows computes the three relation products, ONE root product against the summed
  matrix, the summed bias, the maximum with zero and the two layers.

  On the extended reals the two agree: changes of float format are the identity, every matrix product is the plain sum
  over the contracted index, and (own row)·(Ra + Rb + Rc) = (own row)·Ra + (own row)·Rb + (own row)·Rc because the node
  features and the root matrices are finite by the precondition (distributivity needs real factors); the rest is a
  reordering of a sum, which holds for all extended reals. Modules: RowFormula (one output row in both arrangements, and
  the law), KernelRows (the kernel body on a block is the folded arrangement), BlocksToArray (the 25 blocks are ONE
  array), WindowArrays (what the host operations leave in each array the kernel reads), ReferenceRows (the reference is
  the split arrangement), FiniteEntries (the precondition makes the entries real). The kernel's idealization rewrote no
  operation, so there is nothing to preserve.
-/
import proofs.«167951_j37460704756549_2_alg».proof.Defs
import proofs.«167951_j37460704756549_2_alg».proof.Proof.Gen.Kernel
import proofs.«167951_j37460704756549_2_alg».proof.Proof.Gen.Kernel.Frame
import proofs.«167951_j37460704756549_2_alg».proof.Proof.Gen.KernelIdeal
import proofs.«167951_j37460704756549_2_alg».proof.Proof.Gen.KernelIdeal.Frame
import proofs.«167951_j37460704756549_2_alg».proof.Proof.Gen.KernelIdeal.Value
import proofs.«167951_j37460704756549_2_alg».proof.Proof.Gen.ReferenceIdeal
import proofs.«167951_j37460704756549_2_alg».proof.Proof.Gen.ReferenceIdeal.Run
import proofs.«167951_j37460704756549_2_alg».proof.Proof.Gen.ReferenceIdeal.Read
import proofs.«167951_j37460704756549_2_alg».proof.Proof.Gen.Pre_finite_inputs
import proofs.«167951_j37460704756549_2_alg».proof.Proof.RowFormula
import proofs.«167951_j37460704756549_2_alg».proof.Proof.ReferenceRows
import proofs.«167951_j37460704756549_2_alg».proof.Proof.BlocksToArray
import proofs.«167951_j37460704756549_2_alg».proof.Proof.WindowArrays
import proofs.«167951_j37460704756549_2_alg».proof.Proof.FiniteEntries
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The array the kernel's blocks make up is the reference's formula of the kernel's arguments: each window's array is
    what the host operations left there, and the folded arrangement meets the split one because the node features
    and the root matrices are real. -/
theorem whole_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.BlocksToArray.whole m c
      = Cert.RowFormula.outSplit 50000 (Ideal.ofBits .f32 0x00000000#32)
          (Cert.ReferenceIdeal.Read.val_main_v9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
          (Cert.ReferenceIdeal.Read.val_main_v25 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
          (Cert.ReferenceIdeal.Read.val_main_v42 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
          (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
          (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  obtain ⟨h3, h12, h15, h18⟩ := Cert.FiniteEntries.real_of_pre m hpre c
  exact Cert.RowFormula.outFolded_eq_outSplit_of 50000 _ _ _ _ _ _ _ _ _ _ _ _ _ _ _ _ _ _ _ _ _ _ _ _ _ _ _ _ _ _ _
    (Cert.WindowArrays.agg_app m c) (Cert.WindowArrays.agg_non m c) (Cert.WindowArrays.agg_obs m c)
    (Cert.KernelIdeal.Gen.V_main_arg3 m c)
    (Cert.WindowArrays.w_rel_app m c) (Cert.WindowArrays.w_rel_non m c) (Cert.WindowArrays.w_rel_obs m c)
    (Cert.WindowArrays.w_mlp m c) (Cert.WindowArrays.w_lin m c)
    (Cert.WindowArrays.w_root_sum m c) (Cert.WindowArrays.b_rel_sum m c) (Cert.WindowArrays.b_mlp m c)
    (Cert.WindowArrays.b_lin m c) h3 h12 h15 h18

/-- From memories agreeing on the arguments both programs end with the same result array: the kernel's blocks make up
    the folded formula, the reference computes the split one, and the two are one function of the arguments. -/
theorem algebraic : Cert.algebraic_KernelIdeal_ReferenceIdeal := by
  intro m ρ m' ρ' hpre hagree
  refine ⟨fun c => Cert.BlocksToArray.whole m c, ?_, ?_⟩
  · exact (θ_run Cert.KernelIdeal.defs _ _).mono
      (fun r h c => ⟨(h c).1.trans (Cert.BlocksToArray.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22⟩ :=
      hagree c
    rw [Cert.ReferenceIdeal.Read.val_main_v58_eq, Cert.ReferenceRows.result_eq, e0, e1, e2, e3, e4, e5, e6, e7, e8, e9,
      e10, e11, e12, e13, e14, e15, e16, e17, e18, e19, e20, e21, e22]
    exact (whole_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
